-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2048 : Shape := ⟨2, ![4096, 2048]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S4096x1024 .f32) (main_arg3 : FVec F S4096x2048 .f32) (main_arg4 : FVec F S4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_v13 main_v16
-- ==== Kernel.lean ====
abbrev S4096x1024 : Shape := ⟨2, ![4096, 1024]⟩
abbrev S4096x2048 : Shape := ⟨2, ![4096, 2048]⟩
abbrev S4096 : Shape := ⟨1, ![4096]⟩
abbrev S1x4096 : Shape := ⟨2, ![1, 4096]⟩
abbrev S256x1024 : Shape := ⟨2, ![256, 1024]⟩
abbrev S1024x1024 : Shape := ⟨2, ![1024, 1024]⟩
abbrev S1x1024 : Shape := ⟨2, ![1, 1024]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x2048, .f32⟩
  | .hbm, ⟨4, _⟩ => ⟨S4096, .f32⟩
  | .hbm, ⟨5, _⟩ => ⟨S4096x2048, .bf16⟩
  | .hbm, ⟨6, _⟩ => ⟨S1x4096, .f32⟩
  | .hbm, ⟨7, _⟩ => ⟨S4096x1024, .f32⟩
  | .hbm, ⟨8, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S4096x2048, .bf16⟩
  | .local _ .vmem, ⟨5, _⟩ => ⟨S1x4096, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S4096x2048_S1024x1024_0_0 : ∀ a, (![0, 0] : Fin 2 → Nat) a + S1024x1024.size a ≤ S4096x2048.size a
  h_S1024x1024 : 0 < S1024x1024.numel
  shapeCasts_S1024x1024_S1024x1024 : S1024x1024.ShapeCasts S1024x1024
  inb_S4096x2048_S1024x1024_0_1024 : ∀ a, (![0, 1024] : Fin 2 → Nat) a + S1024x1024.size a ≤ S4096x2048.size a
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  broadcasts_S1x1024_S256x1024 : S1x1024.Broadcasts S256x1024
  inb_S4096x2048_S1024x1024_1024_0 : ∀ a, (![1024, 0] : Fin 2 → Nat) a + S1024x1024.size a ≤ S4096x2048.size a
  inb_S4096x2048_S1024x1024_1024_1024 : ∀ a, (![1024, 1024] : Fin 2 → Nat) a + S1024x1024.size a ≤ S4096x2048.size a
  inb_S1x4096_S1x1024_0_1024 : ∀ a, (![0, 1024] : Fin 2 → Nat) a + S1x1024.size a ≤ S1x4096.size a
  inb_S4096x2048_S1024x1024_2048_0 : ∀ a, (![2048, 0] : Fin 2 → Nat) a + S1024x1024.size a ≤ S4096x2048.size a
  inb_S4096x2048_S1024x1024_2048_1024 : ∀ a, (![2048, 1024] : Fin 2 → Nat) a + S1024x1024.size a ≤ S4096x2048.size a
  inb_S1x4096_S1x1024_0_2048 : ∀ a, (![0, 2048] : Fin 2 → Nat) a + S1x1024.size a ≤ S1x4096.size a
  inb_S4096x2048_S1024x1024_3072_0 : ∀ a, (![3072, 0] : Fin 2 → Nat) a + S1024x1024.size a ≤ S4096x2048.size a
  inb_S4096x2048_S1024x1024_3072_1024 : ∀ a, (![3072, 1024] : Fin 2 → Nat) a + S1024x1024.size a ≤ S4096x2048.size a
  inb_S1x4096_S1x1024_0_3072 : ∀ a, (![0, 3072] : Fin 2 → Nat) a + S1x1024.size a ≤ S1x4096.size a
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x2048.size a ≤ S4096x2048.size a
  hwx0_2 : ∀ i : grid0.Coords, EltTy.bits .bf16 = 32 ∨ (Rect.block (s := S4096x2048) S4096x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S4096x1024.size a
  hwx0_4 : ∀ i : grid0.Coords, EltTy.bits .f32 = 32 ∨ (Rect.block (s := S4096x1024) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x1024.size a
  hwx0_5 : ∀ i : grid0.Coords, EltTy.bits .f32 = 32 ∨ (Rect.block (s := S4096x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x2048 : Shape := ⟨2, ![4096, 2048]⟩
abbrev S4096 : Shape := ⟨1, ![4096]⟩
abbrev S2048x4096 : Shape := ⟨2, ![2048, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x2048, .f32⟩
  | .hbm, ⟨4, _⟩ => ⟨S4096, .f32⟩
  | .hbm, ⟨5, _⟩ => ⟨S4096x2048, .f32⟩
  | .hbm, ⟨6, _⟩ => ⟨S2048x4096, .f32⟩
  | .hbm, ⟨7, _⟩ => ⟨S4096x4096, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  transposes_S4096x2048_S2048x4096_1_0 : S4096x2048.Transposes [1, 0] S2048x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x2048_S2048x4096_S4096x4096_1_0_0_1_n_n_wf : DotDims.WF S4096x2048 S2048x4096 S4096x4096 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.LibMatmulNT.lean ====
/-
  A TensorCore product of an M×K matrix with an N×K matrix, each contracted along its SECOND axis (the right factor
  enters transposed without being transposed in memory), at exact arithmetic, read at an entry: the accumulator's
  entry plus the sum over the contracted axis of the products of the left factor's row entries with the right
  factor's ROW entries,

      (acc + l · rᵀ)[j₀, j₁] = acc[j₀, j₁] + Σ_k l[j₀, k] · r[j₁, k].

  Stated for any contraction record between two-axis shapes whose operand indices are "row of the result, contracted
  position" and "column of the result, contracted position" — four facts that hold by computation for the record such
  a product prints. Nothing is asked of the entries: at exact arithmetic the product is this sum by definition, and the
  only step is to re-index the one-axis contraction by its coordinate.
-/
import Idealize.ShloMosaic.Lib.ValueIdx
import Idealize.ShloMosaic.PureOps.Ideal.Laws

noncomputable section

namespace LibMatmulNT

open Idealize.ShloMosaic Idealize.ShloMosaic.ValueIdx

/-- `tpu.matmul` of an M×K by an N×K matrix, both contracted on axis 1, onto an accumulator, at entry `j`:
    `acc[j] + Σ_k l[j₀,k] · r[j₁,k]`. -/
theorem matmul_nt_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (j 1).val) (hr1 : ∀ j k, (D.rhsIdx j k 1).val = (k ⟨0, by omega⟩).val)
    (prec : Option ContractPrecision) (l : FVec Ideal ⟨2, ![M, K]⟩ φ₁) (r : FVec Ideal ⟨2, ![N, K]⟩ φ₂)
    (acc : FVec Ideal ⟨2, ![M, N]⟩ .f32) (j : (⟨2, ![M, N]⟩ : Shape).Idx) :
    FloatOps.matmul (F := Ideal) D prec l r acc j
      = acc j + ∑ k : Fin K, l (ix2 (n0 := M) (n1 := K) (j 0) k) * r (ix2 (n0 := N) (n1 := K) (j 1) k) := by
  rw [Ideal.matmul_apply, ← Equiv.sum_comp (contrEquiv1 D K hr hs).symm]
  refine congrArg (acc j + ·) (Finset.sum_congr rfl fun k _ => ?_)
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := N) (n1 := K) (j 1) k := funext fun a => Fin.ext (by
    match a with
    | ⟨0, _⟩ => exact hr0 _ _
    | ⟨1, _⟩ => exact (hr1 _ _).trans hk)
  rw [e1, e2]

/-- The same into the zero splat: the accumulator's entry is `0`, so the entry is the bare sum. -/
theorem matmul_nt_zero_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (j 1).val) (hr1 : ∀ j k, (D.rhsIdx j k 1).val = (k ⟨0, by omega⟩).val)
    (prec : Option ContractPrecision) (l : FVec Ideal ⟨2, ![M, K]⟩ φ₁) (r : FVec Ideal ⟨2, ![N, K]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := N) (n1 := K) (j 1) k) := by
  rw [matmul_nt_apply D hr hs hl0 hl1 hr0 hr1]
  show Ideal.ofBits .f32 0x00000000#32 + _ = _
  rw [Ideal.ofBits_zero_f32, zero_add]

end LibMatmulNT

end
-- ==== Proof.LstmSpec.lean ====
/-
  One step of a long short-term memory cell, as a function on the extended reals.

  The step takes a batch of inputs `x` and of previous hidden states `h` (each row has 1024 entries), the previous
  cell states `c`, one stacked weight matrix `W` with 4·1024 rows and 1024 + 1024 columns, and a stacked bias `β`.
  Rows `1024·k … 1024·k + 1023` of `W` (and the same entries of `β`) belong to gate `k`: gate 0 forgets, gate 1 lets
  in, gate 2 lets out, gate 3 proposes. Columns `0 … 1023` of `W` meet the input, columns `1024 … 2047` the hidden state.

  For unit `s` of gate `k` in batch row `b` the pre-activation is

      z k b s  =  (Σ_j x[b,j] · W[1024k+s, j]  +  Σ_j h[b,j] · W[1024k+s, 1024+j])  +  β[1024k+s],

  and the step returns

      c'[b,s] = σ(z 0 b s) · c[b,s] + σ(z 1 b s) · tanh(z 3 b s),        h'[b,s] = σ(z 2 b s) · tanh(c'[b,s]),

  with `σ t = 1 / (1 + e^(-t))`. Everything is stated over plain coordinate functions, so the same definitions read a
  batch of any number of rows: a block of rows of the batch sees exactly the rows it holds, which is why a computation
  tiled over the batch and one over the whole batch agree row by row.

  The only law used later is `sum_joined`: a sum over the 2048 joined columns is the sum over the first 1024 plus the
  sum over the last 1024. It holds in any commutative additive monoid, so nothing is asked of the entries — they may be
  infinite.
-/
import Idealize.ShloMosaic.PureOps.Ideal
import Mathlib.Algebra.BigOperators.Fin

noncomputable section

namespace LstmSpec

open Idealize.ShloMosaic

/-- The row of the stacked weight matrix (and the entry of the stacked bias) that feeds unit `s` of gate `k`. -/
def unitRow (k : Fin 4) (s : Fin 1024) : Fin 4096 :=
  ⟨1024 * k.val + s.val, by have := k.isLt; have := s.isLt; omega⟩

/-- Column `j` of the half of the weight matrix that meets the input. -/
def colIn (j : Fin 1024) : Fin 2048 := ⟨j.val, by have := j.isLt; omega⟩

/-- Column `j` of the half of the weight matrix that meets the previous hidden state. -/
def colRec (j : Fin 1024) : Fin 2048 := ⟨1024 + j.val, by have := j.isLt; omega⟩

variable {R : ℕ}

/-- The pre-activation of unit `s` of gate `k` in batch row `b`: the input's and the hidden state's contributions, each
    a sum of 1024 products, then the bias. -/
def logit (x h : Fin R → Fin 1024 → EReal) (W : Fin 4096 → Fin 2048 → EReal) (β : Fin 4096 → EReal)
    (k : Fin 4) (b : Fin R) (s : Fin 1024) : EReal :=
  (∑ j : Fin 1024, x b j * W (unitRow k s) (colIn j) + ∑ j : Fin 1024, h b j * W (unitRow k s) (colRec j))
    + β (unitRow k s)

/-- The new cell state: what the forget gate keeps of the old one plus what the input gate admits of the proposal. -/
def cell (x h c : Fin R → Fin 1024 → EReal) (W : Fin 4096 → Fin 2048 → EReal) (β : Fin 4096 → EReal)
    (b : Fin R) (s : Fin 1024) : EReal :=
  Ideal.logistic (logit x h W β 0 b s) * c b s
    + Ideal.logistic (logit x h W β 1 b s) * Ideal.tanh (logit x h W β 3 b s)

/-- The new hidden state: what the output gate lets through of the squashed new cell state. -/
def hidden (x h c : Fin R → Fin 1024 → EReal) (W : Fin 4096 → Fin 2048 → EReal) (β : Fin 4096 → EReal)
    (b : Fin R) (s : Fin 1024) : EReal :=
  Ideal.logistic (logit x h W β 2 b s) * Ideal.tanh (cell x h c W β b s)

/-- A sum over the 2048 joined columns is the sum over the input's 1024 columns plus the sum over the hidden state's
    1024 columns. -/
theorem sum_joined (f : Fin 2048 → EReal) :
    ∑ k : Fin 2048, f k = ∑ j : Fin 1024, f (colIn j) + ∑ j : Fin 1024, f (colRec j) := by
  have e := Fin.sum_univ_add (M := EReal) (a := 1024) (b := 1024) f
  refine e.trans ?_
  congr 1

/-- With the joined row `X b ·` agreeing with `x b ·` on the first 1024 columns and with `h b ·` on the last 1024, the
    product summed over all 2048 columns is the two half sums of `logit`. -/
theorem logit_of_joined (x h : Fin R → Fin 1024 → EReal) (W : Fin 4096 → Fin 2048 → EReal) (β : Fin 4096 → EReal)
    (X : Fin R → Fin 2048 → EReal) (hin : ∀ b j, X b (colIn j) = x b j) (hrec : ∀ b j, X b (colRec j) = h b j)
    (k : Fin 4) (b : Fin R) (s : Fin 1024) :
    (∑ q : Fin 2048, X b q * W (unitRow k s) q) + β (unitRow k s) = logit x h W β k b s := by
  unfold logit
  rw [sum_joined]
  simp only [hin, hrec]

/-- A row of the new cell state depends on the batch only through that row of `x`, `h` and `c`: two batches (of
    any sizes) that agree on a row give the same row. -/
theorem cell_congr {R' : ℕ} (x h c : Fin R → Fin 1024 → EReal) (x' h' c' : Fin R' → Fin 1024 → EReal)
    (W W' : Fin 4096 → Fin 2048 → EReal) (β β' : Fin 4096 → EReal) (b : Fin R) (b' : Fin R') (s s' : Fin 1024)
    (hx : x b = x' b') (hh : h b = h' b') (hc : c b = c' b') (hW : W = W') (hβ : β = β') (hs : s = s') :
    cell x h c W β b s = cell x' h' c' W' β' b' s' := by
  subst hW hβ hs
  unfold cell logit
  rw [hx, hh, hc]

/-- The same for the new hidden state. -/
theorem hidden_congr {R' : ℕ} (x h c : Fin R → Fin 1024 → EReal) (x' h' c' : Fin R' → Fin 1024 → EReal)
    (W W' : Fin 4096 → Fin 2048 → EReal) (β β' : Fin 4096 → EReal) (b : Fin R) (b' : Fin R') (s s' : Fin 1024)
    (hx : x b = x' b') (hh : h b = h' b') (hc : c b = c' b') (hW : W = W') (hβ : β = β') (hs : s = s') :
    hidden x h c W β b s = hidden x' h' c' W' β' b' s' := by
  unfold hidden
  rw [cell_congr x h c x' h' c' W W' β β' b b' s s' hx hh hc hW hβ hs]
  subst hW hβ hs
  unfold logit
  rw [hx, hh]

end LstmSpec

end
-- ==== Proof.GateValue.lean ====
/-
  The kernel body, read at an entry, at exact arithmetic.

  At a grid point the body holds a block of 256 rows of the input `x0`, of the previous hidden state `x1` and of the
  previous cell state `x4`, and the WHOLE stacked weight matrix `x2` (4096 × 2048) and stacked bias `x3` (1 × 4096).
  For each of the four gates it reads the gate's 1024 weight rows as two 1024 × 1024 pieces (the columns that meet the
  input, the columns that meet the hidden state) and the gate's 1024 bias entries, forms

      (x0 · Wlᵀ + x1 · Wrᵀ) + bias      (two products onto zero accumulators, each contracting the 1024 columns),

  applies the gate's squashing function, and combines the four gates with the old cell state. Changing a number's
  format is the identity at exact arithmetic, so the two narrowing casts in front of the products do nothing.

  `pre_apply` reads the pre-activation at entry (p, q): the two sums of 1024 products plus the bias entry.
  `cell_store` / `hidden_store` then say that what the body stores to its two outputs is, entry by entry, the
  specification's `LstmSpec.cell` / `LstmSpec.hidden` of the blocks the body holds — the batch there being the block's
  256 rows.
-/
import proofs.«122573_j15195594293829_2_alg».proof.Proof.Gen.KernelIdeal.Frame
import proofs.«122573_j15195594293829_2_alg».proof.Proof.LibMatmulNT
import proofs.«122573_j15195594293829_2_alg».proof.Proof.LstmSpec
import Idealize.ShloMosaic.Lib.Pipeline.Value
import Idealize.ShloMosaic.Lib.ValueLayout

noncomputable section

namespace Cert.KernelIdeal.GateValue

open Cert.KernelIdeal Cert.KernelIdeal.Gen Idealize.ShloMosaic Idealize.ShloMosaic.ValueIdx

/-! ## The product's contraction record: which operand entry each result entry and contracted position read -/

theorem lhs0 (j : S256x1024.Idx) (k : dot_S256x1024_S1024x1024_S256x1024_1_1_0_0_n_n.contr.Idx) :
    (dot_S256x1024_S1024x1024_S256x1024_1_1_0_0_n_n.lhsIdx j k 0).val = (j 0).val := by
  unfold DotDims.lhsIdx
  rw [dif_neg (show ¬(0 : Fin S256x1024.rank) ∈ dot_S256x1024_S1024x1024_S256x1024_1_1_0_0_n_n.lhsBatch by decide),
    dif_pos (show (0 : Fin S256x1024.rank) ∈ dot_S256x1024_S1024x1024_S256x1024_1_1_0_0_n_n.lhsNonContracting by decide)]
  rfl

theorem lhs1 (j : S256x1024.Idx) (k : dot_S256x1024_S1024x1024_S256x1024_1_1_0_0_n_n.contr.Idx) :
    (dot_S256x1024_S1024x1024_S256x1024_1_1_0_0_n_n.lhsIdx j k 1).val = (k ⟨0, by decide⟩).val :=
  dot_S256x1024_S1024x1024_S256x1024_1_1_0_0_n_n.lhsIdx_val_of_single rfl j k

theorem rhs0 (j : S256x1024.Idx) (k : dot_S256x1024_S1024x1024_S256x1024_1_1_0_0_n_n.contr.Idx) :
    (dot_S256x1024_S1024x1024_S256x1024_1_1_0_0_n_n.rhsIdx j k 0).val = (j 1).val := by
  unfold DotDims.rhsIdx
  rw [dif_neg (show ¬(0 : Fin S1024x1024.rank) ∈ dot_S256x1024_S1024x1024_S256x1024_1_1_0_0_n_n.rhsBatch by decide),
    dif_pos (show (0 : Fin S1024x1024.rank) ∈ dot_S256x1024_S1024x1024_S256x1024_1_1_0_0_n_n.rhsNonContracting by decide)]
  rfl

theorem rhs1 (j : S256x1024.Idx) (k : dot_S256x1024_S1024x1024_S256x1024_1_1_0_0_n_n.contr.Idx) :
    (dot_S256x1024_S1024x1024_S256x1024_1_1_0_0_n_n.rhsIdx j k 1).val = (k ⟨0, by decide⟩).val :=
  dot_S256x1024_S1024x1024_S256x1024_1_1_0_0_n_n.rhsIdx_val_of_single rfl j k

/-- A 256 × 1024 block times the transpose of a 1024 × 1024 piece, onto zero: entry (p, q) is the sum over the 1024
    columns of the block's row `p` against the piece's ROW `q`. -/
theorem product_apply (l : FVec Ideal S256x1024 .bf16) (r : FVec Ideal S1024x1024 .bf16) (p : Fin 256) (q : Fin 1024) :
    matmul (F := Ideal) dot_S256x1024_S1024x1024_S256x1024_1_1_0_0_n_n none l r (constant S256x1024 .f32 0x00000000#32) (ix2 p q)
      = ∑ j : Fin 1024, l (ix2 p j) * r (ix2 q j) :=
  LibMatmulNT.matmul_nt_zero_apply dot_S256x1024_S1024x1024_S256x1024_1_1_0_0_n_n rfl rfl lhs0 lhs1 rhs0 rhs1 none l r (ix2 p q)

/-! ## One gate's pre-activation -/

variable {F : FTy → Type} [FloatOps F]

/-- A gate's pre-activation as the body computes it from the two activation blocks, the gate's two weight pieces and
    its bias piece. -/
def pre (x0 x1 : Vec F S256x1024 .f32) (wl wr : Vec F S1024x1024 .bf16) (bv : Vec F S1x1024 .f32) : FVec F S256x1024 .f32 :=
  addf
    (addf
      (matmul dot_S256x1024_S1024x1024_S256x1024_1_1_0_0_n_n none (k0_pay3 x0) (shapeCast S1024x1024 wl shapeCasts_S1024x1024_S1024x1024) (constant S256x1024 .f32 0x00000000#32))
      (matmul dot_S256x1024_S1024x1024_S256x1024_1_1_0_0_n_n none (k0_pay4 x1) (shapeCast S1024x1024 wr shapeCasts_S1024x1024_S1024x1024) (constant S256x1024 .f32 0x00000000#32)))
    (broadcastTo S256x1024 (shapeCast S1x1024 bv shapeCasts_S1x1024_S1x1024) broadcasts_S1x1024_S256x1024)

/-- The forget gate's stored value is the squashed pre-activation. -/
theorem forget_eq (x0 x1 : Vec F S256x1024 .f32) (wl wr : Vec F S1024x1024 .bf16) (bv : Vec F S1x1024 .f32) :
    k0_pay5 x0 x1 wl wr bv = logistic (pre x0 x1 wl wr bv) := rfl

/-- So is the input gate's. -/
theorem admit_eq (x0 x1 : Vec F S256x1024 .f32) (wl wr : Vec F S1024x1024 .bf16) (bv : Vec F S1x1024 .f32) :
    k0_pay6 x0 x1 wl wr bv = logistic (pre x0 x1 wl wr bv) := rfl

/-- The new cell state, from the two squashed gates, the old cell state, and the proposal's pieces. -/
theorem newcell_eq (x0 x1 x4 : Vec F S256x1024 .f32) (f i : FVec F S256x1024 .f32) (wl wr : Vec F S1024x1024 .bf16) (bv : Vec F S1x1024 .f32) :
    k0_pay1 (k0_pay3 x0) (k0_pay4 x1) x4 f i wl wr bv = addf (mulf f x4) (mulf i (tanh (pre x0 x1 wl wr bv))) := rfl

/-- The new hidden state, from the output gate's pieces and the new cell state. -/
theorem newhidden_eq (x0 x1 x4 : Vec F S256x1024 .f32) (f i : FVec F S256x1024 .f32) (ol or' : Vec F S1024x1024 .bf16) (ob : Vec F S1x1024 .f32)
    (wl wr : Vec F S1024x1024 .bf16) (bv : Vec F S1x1024 .f32) :
    k0_pay2 (k0_pay3 x0) (k0_pay4 x1) x4 f i (k0_pay7 ol) (k0_pay8 or') ob wl wr bv
      = mulf (logistic (pre x0 x1 ol or' ob)) (tanh (k0_pay1 (k0_pay3 x0) (k0_pay4 x1) x4 f i wl wr bv)) := rfl

/-- The pre-activation at entry (p, q), at exact arithmetic: the block rows against the pieces' rows, plus the bias. -/
theorem pre_apply (x0 x1 : Vec Ideal S256x1024 .f32) (wl wr : Vec Ideal S1024x1024 .bf16) (bv : Vec Ideal S1x1024 .f32)
    (p : Fin 256) (q : Fin 1024) :
    pre (F := Ideal) x0 x1 wl wr bv (ix2 p q)
      = (∑ j : Fin 1024, x0 (ix2 p j) * wl (ix2 q j) + ∑ j : Fin 1024, x1 (ix2 p j) * wr (ix2 q j)) + bv (ix2 (0 : Fin 1) q) := by
  unfold pre
  rw [shapeCast_self, shapeCast_self, shapeCast_self]
  show (matmul (F := Ideal) dot_S256x1024_S1024x1024_S256x1024_1_1_0_0_n_n none (k0_pay3 x0) wl (constant S256x1024 .f32 0x00000000#32) (ix2 p q)
        + matmul (F := Ideal) dot_S256x1024_S1024x1024_S256x1024_1_1_0_0_n_n none (k0_pay4 x1) wr (constant S256x1024 .f32 0x00000000#32) (ix2 p q))
      + broadcastTo S256x1024 bv broadcasts_S1x1024_S256x1024 (ix2 p q) = _
  rw [product_apply, product_apply, broadcastTo_1b_ab_apply]
  rfl

end Cert.KernelIdeal.GateValue

end
-- ==== Proof.BodyValue.lean ====
/-
  What the kernel body stores, as the specification of the blocks it holds.

  The body never sees the stacked weight matrix as four gates: it reads eight 1024 × 1024 rectangles of the resident
  4096 × 2048 block (gate `k`'s rows `1024k …`, columns `0 …` or `1024 …`) and four 1 × 1024 rectangles of the
  resident 1 × 4096 bias block. A rectangle read at (q, j) is the block at (row offset + q, column offset + j); with
  the offsets of gate `k` that is row `LstmSpec.unitRow k q` and column `LstmSpec.colIn j` / `LstmSpec.colRec j`.
  So each gate's pre-activation at (p, q) is `LstmSpec.logit` of the blocks, and the two stores are
  `LstmSpec.hidden` and `LstmSpec.cell` of the blocks, the batch being the 256 rows the point holds.
-/
import proofs.«122573_j15195594293829_2_alg».proof.Proof.GateValue

noncomputable section

namespace Cert.KernelIdeal.BodyValue

open Cert.KernelIdeal Cert.KernelIdeal.Gen Cert.KernelIdeal.GateValue Idealize.ShloMosaic Idealize.ShloMosaic.ValueIdx
open Idealize.ShloMosaic.Pipeline

/-- A block of 256 activation rows as a function of (row, column). -/
abbrev rows (x : Vec Ideal S256x1024 .f32) : Fin 256 → Fin 1024 → EReal := fun p j => x (ix2 p j)

/-- The resident weight block as a function of (row, column). -/
abbrev weights (x2 : Vec Ideal S4096x2048 .bf16) : Fin 4096 → Fin 2048 → EReal := fun n k => x2 (ix2 n k)

/-- The resident bias block (one row) as a function of the entry. -/
abbrev biases (x3 : Vec Ideal S1x4096 .f32) : Fin 4096 → EReal := fun n => x3 (ix2 (0 : Fin 1) n)

/-- A 1024 × 1024 rectangle of the weight block, read at (q, j): the block at the offsets plus (q, j). -/
theorem weight_piece (x2 : Vec Ideal S4096x2048 .bf16) (off : Fin 2 → ℕ)
    (inb : ∀ a, off a + S1024x1024.size a ≤ S4096x2048.size a) (q j : Fin 1024) (n : Fin 4096) (k : Fin 2048)
    (hn : n.val = off 0 + q.val) (hk : k.val = off 1 + j.val) :
    View.ld x2 (Rect.unit (s := S4096x2048) off S1024x1024.size inb) (ix2 q j) = x2 (ix2 n k) := by
  show x2 ((Rect.unit (s := S4096x2048) off S1024x1024.size inb).emb (ix2 q j)) = x2 (ix2 n k)
  refine congrArg x2 (funext fun a => Fin.ext ?_)
  match a with
  | ⟨0, _⟩ => show off 0 + 1 * q.val = n.val; omega
  | ⟨1, _⟩ => show off 1 + 1 * j.val = k.val; omega

/-- A 1 × 1024 rectangle of the bias block, read at (0, q): the block at (0, column offset + q). -/
theorem bias_piece (x3 : Vec Ideal S1x4096 .f32) (off : Fin 2 → ℕ)
    (inb : ∀ a, off a + S1x1024.size a ≤ S1x4096.size a) (q : Fin 1024) (n : Fin 4096)
    (h0 : off 0 = 0) (hn : n.val = off 1 + q.val) :
    View.ld x3 (Rect.unit (s := S1x4096) off S1x1024.size inb) (ix2 (0 : Fin 1) q) = x3 (ix2 (0 : Fin 1) n) := by
  show x3 ((Rect.unit (s := S1x4096) off S1x1024.size inb).emb (ix2 (0 : Fin 1) q)) = x3 (ix2 (0 : Fin 1) n)
  refine congrArg x3 (funext fun a => Fin.ext ?_)
  match a with
  | ⟨0, _⟩ => show off 0 + 1 * 0 = 0; omega
  | ⟨1, _⟩ => show off 1 + 1 * q.val = n.val; omega

variable (x0 x1 x4 : Vec Ideal S256x1024 .f32) (x2 : Vec Ideal S4096x2048 .bf16) (x3 : Vec Ideal S1x4096 .f32)

/-- The forget gate's pre-activation, from the pieces at rows `0 …`. -/
theorem pre_forget (p : Fin 256) (q : Fin 1024) :
    pre (F := Ideal) x0 x1 (View.ld x2 r0_1) (View.ld x2 r0_2) (View.ld x3 r0_3) (ix2 p q)
      = LstmSpec.logit (rows x0) (rows x1) (weights x2) (biases x3) 0 p q := by
  rw [pre_apply]
  have hl : ∀ j : Fin 1024, View.ld x2 r0_1 (ix2 q j) = x2 (ix2 (LstmSpec.unitRow 0 q) (LstmSpec.colIn j)) := fun j =>
    weight_piece x2 _ _ q j _ _ (by show 1024 * 0 + q.val = 0 + q.val; omega) (by show j.val = 0 + j.val; omega)
  have hr : ∀ j : Fin 1024, View.ld x2 r0_2 (ix2 q j) = x2 (ix2 (LstmSpec.unitRow 0 q) (LstmSpec.colRec j)) := fun j =>
    weight_piece x2 _ _ q j _ _ (by show 1024 * 0 + q.val = 0 + q.val; omega) (by show 1024 + j.val = 1024 + j.val; rfl)
  have hb : View.ld x3 r0_3 (ix2 (0 : Fin 1) q) = x3 (ix2 (0 : Fin 1) (LstmSpec.unitRow 0 q)) :=
    bias_piece x3 _ _ q _ rfl (by show 1024 * 0 + q.val = 0 + q.val; omega)
  simp only [hl, hr, hb]
  rfl

/-- The input gate's, from the pieces at rows `1024 …`. -/
theorem pre_admit (p : Fin 256) (q : Fin 1024) :
    pre (F := Ideal) x0 x1 (View.ld x2 r0_4) (View.ld x2 r0_5) (View.ld x3 r0_6) (ix2 p q)
      = LstmSpec.logit (rows x0) (rows x1) (weights x2) (biases x3) 1 p q := by
  rw [pre_apply]
  have hl : ∀ j : Fin 1024, View.ld x2 r0_4 (ix2 q j) = x2 (ix2 (LstmSpec.unitRow 1 q) (LstmSpec.colIn j)) := fun j =>
    weight_piece x2 _ _ q j _ _ (by show 1024 * 1 + q.val = 1024 + q.val; omega) (by show j.val = 0 + j.val; omega)
  have hr : ∀ j : Fin 1024, View.ld x2 r0_5 (ix2 q j) = x2 (ix2 (LstmSpec.unitRow 1 q) (LstmSpec.colRec j)) := fun j =>
    weight_piece x2 _ _ q j _ _ (by show 1024 * 1 + q.val = 1024 + q.val; omega) (by show 1024 + j.val = 1024 + j.val; rfl)
  have hb : View.ld x3 r0_6 (ix2 (0 : Fin 1) q) = x3 (ix2 (0 : Fin 1) (LstmSpec.unitRow 1 q)) :=
    bias_piece x3 _ _ q _ rfl (by show 1024 * 1 + q.val = 1024 + q.val; omega)
  simp only [hl, hr, hb]
  rfl

/-- The output gate's, from the pieces at rows `2048 …`. -/
theorem pre_emit (p : Fin 256) (q : Fin 1024) :
    pre (F := Ideal) x0 x1 (View.ld x2 r0_7) (View.ld x2 r0_8) (View.ld x3 r0_9) (ix2 p q)
      = LstmSpec.logit (rows x0) (rows x1) (weights x2) (biases x3) 2 p q := by
  rw [pre_apply]
  have hl : ∀ j : Fin 1024, View.ld x2 r0_7 (ix2 q j) = x2 (ix2 (LstmSpec.unitRow 2 q) (LstmSpec.colIn j)) := fun j =>
    weight_piece x2 _ _ q j _ _ (by show 1024 * 2 + q.val = 2048 + q.val; omega) (by show j.val = 0 + j.val; omega)
  have hr : ∀ j : Fin 1024, View.ld x2 r0_8 (ix2 q j) = x2 (ix2 (LstmSpec.unitRow 2 q) (LstmSpec.colRec j)) := fun j =>
    weight_piece x2 _ _ q j _ _ (by show 1024 * 2 + q.val = 2048 + q.val; omega) (by show 1024 + j.val = 1024 + j.val; rfl)
  have hb : View.ld x3 r0_9 (ix2 (0 : Fin 1) q) = x3 (ix2 (0 : Fin 1) (LstmSpec.unitRow 2 q)) :=
    bias_piece x3 _ _ q _ rfl (by show 1024 * 2 + q.val = 2048 + q.val; omega)
  simp only [hl, hr, hb]
  rfl

/-- The proposal's, from the pieces at rows `3072 …`. -/
theorem pre_propose (p : Fin 256) (q : Fin 1024) :
    pre (F := Ideal) x0 x1 (View.ld x2 r0_10) (View.ld x2 r0_11) (View.ld x3 r0_12) (ix2 p q)
      = LstmSpec.logit (rows x0) (rows x1) (weights x2) (biases x3) 3 p q := by
  rw [pre_apply]
  have hl : ∀ j : Fin 1024, View.ld x2 r0_10 (ix2 q j) = x2 (ix2 (LstmSpec.unitRow 3 q) (LstmSpec.colIn j)) := fun j =>
    weight_piece x2 _ _ q j _ _ (by show 1024 * 3 + q.val = 3072 + q.val; omega) (by show j.val = 0 + j.val; omega)
  have hr : ∀ j : Fin 1024, View.ld x2 r0_11 (ix2 q j) = x2 (ix2 (LstmSpec.unitRow 3 q) (LstmSpec.colRec j)) := fun j =>
    weight_piece x2 _ _ q j _ _ (by show 1024 * 3 + q.val = 3072 + q.val; omega) (by show 1024 + j.val = 1024 + j.val; rfl)
  have hb : View.ld x3 r0_12 (ix2 (0 : Fin 1) q) = x3 (ix2 (0 : Fin 1) (LstmSpec.unitRow 3 q)) :=
    bias_piece x3 _ _ q _ rfl (by show 1024 * 3 + q.val = 3072 + q.val; omega)
  simp only [hl, hr, hb]
  rfl

theorem zero_offsets : (![0, 0] : Fin 2 → Nat) = fun _ => 0 := funext fun a => by fin_cases a <;> rfl

/-- What the body leaves in the cell-state output's buffer: the new cell state of the blocks it holds. -/
theorem cell_store :
    out0_6 (F := Ideal) x0 x1 x2 x3 x4
      = fun y => LstmSpec.cell (rows x0) (rows x1) (rows x4) (weights x2) (biases x3) (y 0) (y 1) := by
  unfold out0_6
  rw [View.canon_unit_zero zero_offsets]
  simp only [View.ld_unit_zero (S := S256x1024) zero_offsets]
  rw [newcell_eq, forget_eq, admit_eq]
  funext y
  obtain ⟨p, q, rfl⟩ : ∃ (p : Fin 256) (q : Fin 1024), y = ix2 p q := ⟨y 0, y 1, eq_ix2 y⟩
  show FloatOps.addf
      (FloatOps.mulf (FloatOps.logistic (pre (F := Ideal) x0 x1 (View.ld x2 r0_1) (View.ld x2 r0_2) (View.ld x3 r0_3) (ix2 p q))) (x4 (ix2 p q)))
      (FloatOps.mulf (FloatOps.logistic (pre (F := Ideal) x0 x1 (View.ld x2 r0_4) (View.ld x2 r0_5) (View.ld x3 r0_6) (ix2 p q)))
        (FloatOps.tanh (pre (F := Ideal) x0 x1 (View.ld x2 r0_10) (View.ld x2 r0_11) (View.ld x3 r0_12) (ix2 p q)))) = _
  rw [pre_forget, pre_admit, pre_propose]
  rfl

/-- What the body leaves in the hidden-state output's buffer: the new hidden state of the blocks it holds. -/
theorem hidden_store :
    out0_5 (F := Ideal) x0 x1 x2 x3 x4
      = fun y => LstmSpec.hidden (rows x0) (rows x1) (rows x4) (weights x2) (biases x3) (y 0) (y 1) := by
  unfold out0_5
  rw [View.canon_unit_zero zero_offsets]
  simp only [View.ld_unit_zero (S := S256x1024) zero_offsets]
  rw [newhidden_eq, newcell_eq, forget_eq, admit_eq]
  funext y
  obtain ⟨p, q, rfl⟩ : ∃ (p : Fin 256) (q : Fin 1024), y = ix2 p q := ⟨y 0, y 1, eq_ix2 y⟩
  show FloatOps.mulf
      (FloatOps.logistic (pre (F := Ideal) x0 x1 (View.ld x2 r0_7) (View.ld x2 r0_8) (View.ld x3 r0_9) (ix2 p q)))
      (FloatOps.tanh (FloatOps.addf
        (FloatOps.mulf (FloatOps.logistic (pre (F := Ideal) x0 x1 (View.ld x2 r0_1) (View.ld x2 r0_2) (View.ld x3 r0_3) (ix2 p q))) (x4 (ix2 p q)))
        (FloatOps.mulf (FloatOps.logistic (pre (F := Ideal) x0 x1 (View.ld x2 r0_4) (View.ld x2 r0_5) (View.ld x3 r0_6) (ix2 p q)))
          (FloatOps.tanh (pre (F := Ideal) x0 x1 (View.ld x2 r0_10) (View.ld x2 r0_11) (View.ld x3 r0_12) (ix2 p q)))))) = _
  rw [pre_emit, pre_forget, pre_admit, pre_propose]
  rfl

end Cert.KernelIdeal.BodyValue

end
-- ==== Proof.ArrayValue.lean ====
/-
  From the blocks to the arrays: what the two result arrays hold after the kernel has run.

  The grid has 16 points. Point `t` holds rows `256 t … 256 t + 255` of the input, of the previous hidden state and of
  the previous cell state, the whole stacked weight matrix and the whole stacked bias (as the region finds them: the
  weight matrix after a change of number format, which is the identity at exact arithmetic, and the bias laid out as
  one row), and writes rows `256 t … 256 t + 255` of the two results. Because a row of the specification's result
  depends on the batch only through that row (`LstmSpec.cell_congr`, `LstmSpec.hidden_congr`), what point `t` writes
  is block `t` of the specification applied to the WHOLE batch. The 16 blocks of 256 rows tile the 4096 rows (row `r`
  is in block `r / 256`), so each result array ends holding the specification of the argument arrays.
-/
import proofs.«122573_j15195594293829_2_alg».proof.Proof.BodyValue
import proofs.«122573_j15195594293829_2_alg».proof.Proof.Gen.KernelIdeal.Value
import Idealize.ShloMosaic.Lib.Pipeline.Value
import Idealize.ShloMosaic.Lib.ValueLayout
import Idealize.ShloMosaic.Lib.StableHlo.Run

noncomputable section

namespace Cert.KernelIdeal.ArrayValue

open Cert.KernelIdeal Cert.KernelIdeal.Gen Cert.KernelIdeal.BodyValue Idealize.ShloMosaic Idealize.ShloMosaic.ValueIdx
open Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- A whole batch array as a function of (row, column). -/
abbrev batch (X : Vec Ideal S4096x1024 .f32) : Fin 4096 → Fin 1024 → EReal := fun b j => X (ix2 b j)

/-- The new cell state of the whole batch, from the arrays as the region finds them. -/
def cellOf (X H C : Vec Ideal S4096x1024 .f32) (W : Vec Ideal S4096x2048 .bf16) (B : Vec Ideal S1x4096 .f32) : S4096x1024.Idx → EReal :=
  fun i => LstmSpec.cell (batch X) (batch H) (batch C) (weights W) (biases B) (i 0) (i 1)

/-- The new hidden state of the whole batch, from the arrays as the region finds them. -/
def hiddenOf (X H C : Vec Ideal S4096x1024 .f32) (W : Vec Ideal S4096x2048 .bf16) (B : Vec Ideal S1x4096 .f32) : S4096x1024.Idx → EReal :=
  fun i => LstmSpec.hidden (batch X) (batch H) (batch C) (weights W) (biases B) (i 0) (i 1)

/-! ## Where each window's block sits at a point -/

/-- The three activation windows and the two result windows move together down the rows, one block of 256 per point,
    and stay in the one column block; the weight and bias windows stay on their one block. Decided over the 16 points. -/
theorem block_places : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_4.index t (0 : Fin 2) = win0_5.index t (0 : Fin 2) ∧ win0_4.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_6.index t (0 : Fin 2) = win0_5.index t (0 : Fin 2) ∧ win0_6.index t (1 : Fin 2) = 0
    ∧ win0_5.index t (1 : Fin 2) = 0 ∧ win0_5.index t (0 : Fin 2) ≤ 15 :=
  (by decide +kernel : ∀ t : Fin grid0.N, _)

/-- Every one of the 16 row blocks is some point's, for both results. -/
theorem block_onto : ∀ q0 : Fin 16, ∃ t : Fin cfg0.N, win0_5.index t = ![q0.val, 0] ∧ win0_6.index t = ![q0.val, 0] :=
  (by decide +kernel : ∀ q0 : Fin 16, ∃ t : Fin grid0.N, win0_5.index t = ![q0.val, 0] ∧ win0_6.index t = ![q0.val, 0])

/-- Row `p` of the input block at point `t` is row `256 · (block index) + p` of the input array. -/
theorem input_row (c : Dev nD) (t : Fin cfg0.N) (p : Fin 256) (b : Fin 4096) (hb : b.val = win0_5.index t (0 : Fin 2) * 256 + p.val) :
    rows (iblk m c 0 t) p = batch (V m c main_arg0) b := by
  funext j
  show V m c main_arg0 (((cfg0.win 0).blk t).view.emb (ix2 p j)) = V m c main_arg0 (ix2 b j)
  obtain ⟨e0, e1, -⟩ := block_places t
  refine congrArg (V m c main_arg0) (funext fun a => Fin.ext ?_)
  match a with
  | ⟨0, _⟩ => show win0_0.index t (0 : Fin 2) * 256 + 1 * p.val = b.val; omega
  | ⟨1, _⟩ => show win0_0.index t (1 : Fin 2) * 1024 + 1 * j.val = j.val; omega

/-- The same for the previous hidden state. -/
theorem state_row (c : Dev nD) (t : Fin cfg0.N) (p : Fin 256) (b : Fin 4096) (hb : b.val = win0_5.index t (0 : Fin 2) * 256 + p.val) :
    rows (iblk m c 1 t) p = batch (V m c main_arg1) b := by
  funext j
  show V m c main_arg1 (((cfg0.win 1).blk t).view.emb (ix2 p j)) = V m c main_arg1 (ix2 b j)
  obtain ⟨-, -, e0, e1, -⟩ := block_places t
  refine congrArg (V m c main_arg1) (funext fun a => Fin.ext ?_)
  match a with
  | ⟨0, _⟩ => show win0_1.index t (0 : Fin 2) * 256 + 1 * p.val = b.val; omega
  | ⟨1, _⟩ => show win0_1.index t (1 : Fin 2) * 1024 + 1 * j.val = j.val; omega

/-- The same for the previous cell state. -/
theorem memory_row (c : Dev nD) (t : Fin cfg0.N) (p : Fin 256) (b : Fin 4096) (hb : b.val = win0_5.index t (0 : Fin 2) * 256 + p.val) :
    rows (iblk m c 4 t) p = batch (V m c main_arg2) b := by
  funext j
  show V m c main_arg2 (((cfg0.win 4).blk t).view.emb (ix2 p j)) = V m c main_arg2 (ix2 b j)
  obtain ⟨-, -, -, -, e0, e1, -⟩ := block_places t
  refine congrArg (V m c main_arg2) (funext fun a => Fin.ext ?_)
  match a with
  | ⟨0, _⟩ => show win0_4.index t (0 : Fin 2) * 256 + 1 * p.val = b.val; omega
  | ⟨1, _⟩ => show win0_4.index t (1 : Fin 2) * 1024 + 1 * j.val = j.val; omega

/-- The weight window's one block is the whole weight array the region finds. -/
theorem weight_block (c : Dev nD) (t : Fin cfg0.N) : weights (iblk m c 2 t) = weights (V m c main_v0) := by
  funext n k
  show V m c main_v0 (((cfg0.win 2).blk t).view.emb (ix2 n k)) = V m c main_v0 (ix2 n k)
  obtain ⟨-, -, -, -, -, -, e0, e1, -⟩ := block_places t
  refine congrArg (V m c main_v0) (funext fun a => Fin.ext ?_)
  match a with
  | ⟨0, _⟩ => show win0_2.index t (0 : Fin 2) * 4096 + 1 * n.val = n.val; omega
  | ⟨1, _⟩ => show win0_2.index t (1 : Fin 2) * 2048 + 1 * k.val = k.val; omega

/-- The bias window's one block is the whole one-row bias array the region finds. -/
theorem bias_block (c : Dev nD) (t : Fin cfg0.N) : biases (iblk m c 3 t) = biases (V m c main_v1) := by
  funext n
  show V m c main_v1 (((cfg0.win 3).blk t).view.emb (ix2 (0 : Fin 1) n)) = V m c main_v1 (ix2 (0 : Fin 1) n)
  obtain ⟨-, -, -, -, -, -, -, -, e0, e1, -⟩ := block_places t
  refine congrArg (V m c main_v1) (funext fun a => Fin.ext ?_)
  match a with
  | ⟨0, _⟩ => show win0_3.index t (0 : Fin 2) * 1 + 1 * 0 = 0; omega
  | ⟨1, _⟩ => show win0_3.index t (1 : Fin 2) * 4096 + 1 * n.val = n.val; omega

/-! ## What each point writes back -/

/-- Point `t` writes back block `t` of the new cell state of the whole batch. -/
theorem flushed_cell (c : Dev nD) (t : Fin cfg0.N) :
    (dats m 0 c).flushed 6 t = ((cfg0.win 6).blk t).view.read (Elt Ideal)
      (cellOf (V m c main_arg0) (V m c main_arg1) (V m c main_arg2) (V m c main_v0) (V m c main_v1)) := by
  rw [Value.flushed6, cell_store]
  funext y
  obtain ⟨-, -, -, -, -, -, -, -, -, -, e0, e1, -⟩ := block_places t
  have hrow : (((cfg0.win 6).blk t).view.emb y (0 : Fin 2)).val = win0_5.index t (0 : Fin 2) * 256 + (y 0).val := by
    show win0_6.index t (0 : Fin 2) * 256 + 1 * (y 0).val = _; omega
  have hcol : y 1 = ((cfg0.win 6).blk t).view.emb y (1 : Fin 2) := Fin.ext (by
    show (y 1).val = win0_6.index t (1 : Fin 2) * 1024 + 1 * (y 1).val; omega)
  exact LstmSpec.cell_congr _ _ _ _ _ _ _ _ _ _ (y 0) (((cfg0.win 6).blk t).view.emb y (0 : Fin 2)) (y 1) (((cfg0.win 6).blk t).view.emb y (1 : Fin 2))
    (input_row m c t (y 0) _ hrow) (state_row m c t (y 0) _ hrow) (memory_row m c t (y 0) _ hrow)
    (weight_block m c t) (bias_block m c t) hcol

/-- Point `t` writes back block `t` of the new hidden state of the whole batch. -/
theorem flushed_hidden (c : Dev nD) (t : Fin cfg0.N) :
    (dats m 0 c).flushed 5 t = ((cfg0.win 5).blk t).view.read (Elt Ideal)
      (hiddenOf (V m c main_arg0) (V m c main_arg1) (V m c main_arg2) (V m c main_v0) (V m c main_v1)) := by
  rw [Value.flushed5, hidden_store]
  funext y
  obtain ⟨-, -, -, -, -, -, -, -, -, -, -, -, e1, -⟩ := block_places t
  have hrow : (((cfg0.win 5).blk t).view.emb y (0 : Fin 2)).val = win0_5.index t (0 : Fin 2) * 256 + (y 0).val := by
    show win0_5.index t (0 : Fin 2) * 256 + 1 * (y 0).val = _; omega
  have hcol : y 1 = ((cfg0.win 5).blk t).view.emb y (1 : Fin 2) := Fin.ext (by
    show (y 1).val = win0_5.index t (1 : Fin 2) * 1024 + 1 * (y 1).val; omega)
  exact LstmSpec.hidden_congr _ _ _ _ _ _ _ _ _ _ (y 0) (((cfg0.win 5).blk t).view.emb y (0 : Fin 2)) (y 1) (((cfg0.win 5).blk t).view.emb y (1 : Fin 2))
    (input_row m c t (y 0) _ hrow) (state_row m c t (y 0) _ hrow) (memory_row m c t (y 0) _ hrow)
    (weight_block m c t) (bias_block m c t) hcol

/-! ## The blocks tile the arrays -/

theorem mem_block_hidden (t : Fin cfg0.N) (i : S4096x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v2_0).slice (win0_5.rect t)).set ↔ _
  rw [View.set_slice_whole, Rect.mem_set_unit]
  exact Iff.rfl

theorem mem_block_cell (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v2_1).slice (win0_6.rect t)).set ↔ _
  rw [View.set_slice_whole, Rect.mem_set_unit]
  exact Iff.rfl

/-- Row `r` of the hidden-state result lies in the block of point `r / 256`. -/
theorem cover_hidden (i : S4096x1024.Idx) : ∃ t : Fin cfg0.N, (cfg0.win 5).flush t = true ∧ i ∈ ((cfg0.win 5).blk t).view.set := by
  have hi0 : (i 0).val < 4096 := (i 0).isLt
  have hi1 : (i 1).val < 1024 := (i 1).isLt
  obtain ⟨t, ht, -⟩ := block_onto ⟨(i 0).val / 256, by omega⟩
  have q0 : win0_5.index t (0 : Fin 2) = (i 0).val / 256 := congrFun ht 0
  have q1 : win0_5.index t (1 : Fin 2) = 0 := congrFun ht 1
  refine ⟨t, flush0_5 t, ?_⟩
  rw [mem_block_hidden]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

/-- And of the cell-state result. -/
theorem cover_cell (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  obtain ⟨t, -, ht⟩ := block_onto ⟨(i 0).val / 256, by omega⟩
  have q0 : win0_6.index t (0 : Fin 2) = (i 0).val / 256 := congrFun ht 0
  have q1 : win0_6.index t (1 : Fin 2) = 0 := congrFun ht 1
  refine ⟨t, flush0_6 t, ?_⟩
  rw [mem_block_cell]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-! ## The arrays the region finds, from the arguments -/

/-- The weight array the region finds is the weight argument: the host's change of number format is the identity. -/
theorem weights_found (c : Dev nD) :
    weights (V m c main_v0) = fun n k => m ((c : Thread nD τ).loc main_arg3) (ix2 n k) := by
  have e : (V m c main_v0 : S4096x2048.Idx → EReal)
      = truncf (F := Ideal) (s := S4096x2048) (φ := .f32) .bf16 (m ((c : Thread nD τ).loc main_arg3)) bitsLt_bf16_f32 := by
    dsimp only [Gen.V, Gen.hostOps0]; after_results
  funext n k
  show V m c main_v0 (ix2 n k) = _
  rw [e]
  rfl

/-- The one-row bias array the region finds holds the bias argument's entries in order. -/
theorem biases_found (c : Dev nD) :
    biases (V m c main_v1) = fun n => m ((c : Thread nD τ).loc main_arg4) (ix1 n) := by
  have e : (V m c main_v1 : S1x4096.Idx → EReal) = shapeCast S1x4096 (m ((c : Thread nD τ).loc main_arg4)) shapeCasts_S4096_S1x4096 := by
    dsimp only [Gen.V, Gen.hostOps0]; after_results; rfl
  funext n
  show V m c main_v1 (ix2 (0 : Fin 1) n) = _
  rw [e]
  exact shapeCast_a_1a_apply _ _ 0 n

/-! ## The result arrays -/

/-- The specification of the argument arrays: the new hidden state. -/
def hiddenSpec (c : Dev nD) : S4096x1024.Idx → EReal := fun i =>
  LstmSpec.hidden (batch (m ((c : Thread nD τ).loc main_arg0))) (batch (m ((c : Thread nD τ).loc main_arg1))) (batch (m ((c : Thread nD τ).loc main_arg2)))
    (fun n k => m ((c : Thread nD τ).loc main_arg3) (ix2 n k)) (fun n => m ((c : Thread nD τ).loc main_arg4) (ix1 n)) (i 0) (i 1)

/-- The specification of the argument arrays: the new cell state. -/
def cellSpec (c : Dev nD) : S4096x1024.Idx → EReal := fun i =>
  LstmSpec.cell (batch (m ((c : Thread nD τ).loc main_arg0))) (batch (m ((c : Thread nD τ).loc main_arg1))) (batch (m ((c : Thread nD τ).loc main_arg2)))
    (fun n k => m ((c : Thread nD τ).loc main_arg3) (ix2 n k)) (fun n => m ((c : Thread nD τ).loc main_arg4) (ix1 n)) (i 0) (i 1)

/-- After the run the hidden-state result array holds the specification of the arguments. -/
theorem final_hidden (c : Dev nD) : (dats m 0 c).arrAt 5 cfg0.N = hiddenSpec m c := by
  rw [(dats m 0 c).arrAt_eq_of_cover 5 (hiddenOf (V m c main_arg0) (V m c main_arg1) (V m c main_arg2) (V m c main_v0) (V m c main_v1))
    (fun t _ => flushed_hidden m c t) cover_hidden]
  unfold hiddenOf hiddenSpec
  rw [weights_found, biases_found, V_main_arg0, V_main_arg1, V_main_arg2]

/-- After the run the cell-state result array holds the specification of the arguments. -/
theorem final_cell (c : Dev nD) : (dats m 0 c).arrAt 6 cfg0.N = cellSpec m c := by
  rw [(dats m 0 c).arrAt_eq_of_cover 6 (cellOf (V m c main_arg0) (V m c main_arg1) (V m c main_arg2) (V m c main_v0) (V m c main_v1))
    (fun t _ => flushed_cell m c t) cover_cell]
  unfold cellOf cellSpec
  rw [weights_found, biases_found, V_main_arg0, V_main_arg1, V_main_arg2]

/-- The kernel's run: every weakly fair execution terminates with the two result arrays at the specification of the
    argument arrays, the arguments unchanged. -/
theorem run : θ_run defs (onTc (τ := τ) (main (F := Ideal))) ⟨m, fun _ => 0, ρ⟩ fun r => ∀ c : Dev nD,
      r.2.mem ((c : Thread nD τ).loc main_v2_0) = hiddenSpec m c
      ∧ r.2.mem ((c : Thread nD τ).loc main_v2_1) = cellSpec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_hidden m c), (h c).2.1.trans (final_cell m c), (h c).2.2⟩)
    (Value.run_blocks m ρ)

end Cert.KernelIdeal.ArrayValue

end
-- ==== Proof.RefValue.lean ====
/-
  The reference, read at an entry, at exact arithmetic.

  The reference joins the input and the previous hidden state side by side into one 4096 × 2048 array, multiplies it
  by the transposed stacked weight matrix in ONE product contracting all 2048 columns, adds the bias along the rows,
  cuts the 4096 resulting columns into the four gates' 1024, and squashes: three gates by `1 / (1 + e^(-t))` spelled
  out with a negation, an exponential, an addition to the constant one and a quotient of the constant one, the
  proposal and the new cell state by `tanh`.

  Entry (b, n) of the product-plus-bias is `Σ_{q<2048} J[b,q] · W[n,q] + β[n]` with `J` the joined array, whose first
  1024 columns are the input's and last 1024 the hidden state's; by `LstmSpec.logit_of_joined` (a sum over the joined
  columns is the sum of the two halves) column `1024k + s` is the specification's pre-activation of unit `s` of gate
  `k`. The spelled-out squashing is the logistic function by definition, the constant's bit pattern being the number
  one. So the two results are `LstmSpec.hidden` and `LstmSpec.cell` of the whole batch.
-/
import proofs.«122573_j15195594293829_2_alg».proof.Proof.Gen.ReferenceIdeal.Read
import proofs.«122573_j15195594293829_2_alg».proof.Proof.LstmSpec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx

/-- A batch array as a function of (row, column). -/
abbrev batch (x : (⟨S4096x1024, .f32⟩ : BufTy).Contents (Elt Ideal)) : Fin 4096 → Fin 1024 → EReal := fun b j => x (ix2 b j)

/-- The stacked weight matrix as a function of (row, column). -/
abbrev weights (x3 : (⟨S4096x2048, .f32⟩ : BufTy).Contents (Elt Ideal)) : Fin 4096 → Fin 2048 → EReal := fun n k => x3 (ix2 n k)

/-- The stacked bias as a function of the entry. -/
abbrev biases (x4 : (⟨S4096, .f32⟩ : BufTy).Contents (Elt Ideal)) : Fin 4096 → EReal := fun n => x4 (ix1 n)

variable (x0 x1 x2 : (⟨S4096x1024, .f32⟩ : BufTy).Contents (Elt Ideal)) (x3 : (⟨S4096x2048, .f32⟩ : BufTy).Contents (Elt Ideal))
  (x4 : (⟨S4096, .f32⟩ : BufTy).Contents (Elt Ideal))

/-- The joined array on its first 1024 columns is the input. -/
theorem joined_in (b : Fin 4096) (j : Fin 1024) :
    val_main_v0 (F := Ideal) x0 x1 (ix2 b (LstmSpec.colIn j)) = x0 (ix2 b j) := by
  unfold val_main_v0
  exact concatenate_pair_apply_left 1 x0 x1 concatenates_S4096x1024_S4096x1024_S4096x2048_d1 (ix2 b (LstmSpec.colIn j)) rfl (ix2 b j)
    (fun a => match a with
      | ⟨0, _⟩ => rfl
      | ⟨1, _⟩ => rfl)

/-- The joined array on its last 1024 columns is the previous hidden state. -/
theorem joined_rec (b : Fin 4096) (j : Fin 1024) :
    val_main_v0 (F := Ideal) x0 x1 (ix2 b (LstmSpec.colRec j)) = x1 (ix2 b j) := by
  unfold val_main_v0
  exact concatenate_pair_apply_right 1 x0 x1 concatenates_S4096x1024_S4096x1024_S4096x2048_d1 (ix2 b (LstmSpec.colRec j)) rfl rfl (ix2 b j)
    (fun a hne => match a, hne with
      | ⟨0, _⟩, _ => rfl
      | ⟨1, _⟩, h => absurd rfl h)
    (by show j.val + 1024 = 1024 + j.val; omega)

/-- Entry (b, n) of the product plus the bias: the joined row `b` against the weight ROW `n`, plus bias entry `n`. -/
theorem gates_apply (b n : Fin 4096) :
    val_main_v5 (F := Ideal) x0 x1 x3 x4 (ix2 b n)
      = (∑ q : Fin 2048, val_main_v0 (F := Ideal) x0 x1 (ix2 b q) * x3 (ix2 n q)) + x4 (ix1 n) := by
  rw [val_main_v5_apply, val_main_v2_apply, val_main_v4_apply, val_main_v3_apply]
  have e1 : ∀ k : Fin 2048, lidx_main_v2 (ix2 b n) k = ix2 b k := fun k => funext fun a => Fin.ext (by
    match a with
    | ⟨0, _⟩ => rfl
    | ⟨1, _⟩ => rfl)
  have e2 : ∀ k : Fin 2048, val_main_v1 (F := Ideal) x3 (ridx_main_v2 (ix2 b n) k) = x3 (ix2 n k) := fun k => by
    rw [val_main_v1_apply]
    exact congrArg x3 (funext fun a => Fin.ext (by
      match a with
      | ⟨0, _⟩ => rfl
      | ⟨1, _⟩ => rfl))
  have e3 : idx_main_v3 (idx_main_v4 (ix2 b n)) = ix1 n := funext fun a => Fin.ext (by
    match a with
    | ⟨0, _⟩ => rfl)
  simp only [e1, e2, e3]
  rfl

/-- Column `1024k + s` of it is the specification's pre-activation of unit `s` of gate `k`. -/
theorem gates_logit (k : Fin 4) (b : Fin 4096) (s : Fin 1024) :
    val_main_v5 (F := Ideal) x0 x1 x3 x4 (ix2 b (LstmSpec.unitRow k s))
      = LstmSpec.logit (batch x0) (batch x1) (weights x3) (biases x4) k b s := by
  rw [gates_apply]
  exact LstmSpec.logit_of_joined (batch x0) (batch x1) (weights x3) (biases x4)
    (fun b q => val_main_v0 (F := Ideal) x0 x1 (ix2 b q)) (fun b j => joined_in x0 x1 b j) (fun b j => joined_rec x0 x1 b j) k b s

/-- The four cuts of the 4096 columns are the four gates. -/
theorem cut_forget (b : Fin 4096) (s : Fin 1024) :
    val_main_v6 (F := Ideal) x0 x1 x3 x4 (ix2 b s) = LstmSpec.logit (batch x0) (batch x1) (weights x3) (biases x4) 0 b s := by
  rw [val_main_v6_apply, ← gates_logit]
  exact congrArg _ (funext fun a => Fin.ext (by
    match a with
    | ⟨0, _⟩ => rfl
    | ⟨1, _⟩ => show s.val = 1024 * 0 + s.val; omega))

theorem cut_admit (b : Fin 4096) (s : Fin 1024) :
    val_main_v7 (F := Ideal) x0 x1 x3 x4 (ix2 b s) = LstmSpec.logit (batch x0) (batch x1) (weights x3) (biases x4) 1 b s := by
  rw [val_main_v7_apply, ← gates_logit]
  exact congrArg _ (funext fun a => Fin.ext (by
    match a with
    | ⟨0, _⟩ => rfl
    | ⟨1, _⟩ => show 1024 + s.val = 1024 * 1 + s.val; omega))

theorem cut_emit (b : Fin 4096) (s : Fin 1024) :
    val_main_v8 (F := Ideal) x0 x1 x3 x4 (ix2 b s) = LstmSpec.logit (batch x0) (batch x1) (weights x3) (biases x4) 2 b s := by
  rw [val_main_v8_apply, ← gates_logit]
  exact congrArg _ (funext fun a => Fin.ext (by
    match a with
    | ⟨0, _⟩ => rfl
    | ⟨1, _⟩ => show 2048 + s.val = 1024 * 2 + s.val; omega))

theorem cut_propose (b : Fin 4096) (s : Fin 1024) :
    val_main_v9 (F := Ideal) x0 x1 x3 x4 (ix2 b s) = LstmSpec.logit (batch x0) (batch x1) (weights x3) (biases x4) 3 b s := by
  rw [val_main_v9_apply, ← gates_logit]
  exact congrArg _ (funext fun a => Fin.ext (by
    match a with
    | ⟨0, _⟩ => rfl
    | ⟨1, _⟩ => show 3072 + s.val = 1024 * 3 + s.val; omega))

/-- The constant one over one plus the exponential of the negation is the logistic function: its definition, the
    constant's bit pattern denoting the number one. -/
theorem spelled_logistic (t : EReal) :
    FloatOps.hostDivf (F := Ideal) (φ := .f32) (FloatOps.ofBits .f32 0x3F800000#32)
        (FloatOps.addf (FloatOps.ofBits .f32 0x3F800000#32) (FloatOps.hostUnary .exp (FloatOps.hostNegf t)))
      = Ideal.logistic t := by
  show Ideal.div (Ideal.ofBits .f32 0x3F800000#32) (Ideal.ofBits .f32 0x3F800000#32 + Ideal.exp (-t)) = Ideal.logistic t
  rw [Ideal.ofBits_one_f32]
  rfl

/-- The new cell state the reference returns is the specification's, entry by entry. -/
theorem newcell_apply (i : S4096x1024.Idx) :
    val_main_v31 (F := Ideal) x0 x1 x2 x3 x4 i
      = LstmSpec.cell (batch x0) (batch x1) (batch x2) (weights x3) (biases x4) (i 0) (i 1) := by
  obtain ⟨b, s, rfl⟩ : ∃ (b : Fin 4096) (s : Fin 1024), i = ix2 b s := ⟨i 0, i 1, eq_ix2 i⟩
  rw [val_main_v31_apply, val_main_v29_apply, val_main_v30_apply, val_main_v28_apply,
    val_main_v15_apply, val_main_v14_apply, val_main_cst_0_apply, val_main_v13_apply, val_main_v12_apply, val_main_cst_apply,
    val_main_v11_apply, val_main_v10_apply,
    val_main_v21_apply, val_main_v20_apply, val_main_cst_2_apply, val_main_v19_apply, val_main_v18_apply, val_main_cst_1_apply,
    val_main_v17_apply, val_main_v16_apply,
    spelled_logistic, spelled_logistic, cut_forget, cut_admit, cut_propose]
  rfl

/-- The new hidden state the reference returns is the specification's, entry by entry. -/
theorem newhidden_apply (i : S4096x1024.Idx) :
    val_main_v33 (F := Ideal) x0 x1 x2 x3 x4 i
      = LstmSpec.hidden (batch x0) (batch x1) (batch x2) (weights x3) (biases x4) (i 0) (i 1) := by
  rw [val_main_v33_apply, val_main_v32_apply, newcell_apply]
  obtain ⟨b, s, rfl⟩ : ∃ (b : Fin 4096) (s : Fin 1024), i = ix2 b s := ⟨i 0, i 1, eq_ix2 i⟩
  rw [val_main_v27_apply, val_main_v26_apply, val_main_cst_4_apply, val_main_v25_apply, val_main_v24_apply, val_main_cst_3_apply,
    val_main_v23_apply, val_main_v22_apply, spelled_logistic, cut_emit]
  rfl

end Cert.ReferenceIdeal.RefValue

end
-- ==== Proof.lean ====
/-
  One step of a long short-term memory cell, computed two ways, gives the same numbers on the extended reals.

  With `x` the input batch (4096 rows of 1024), `h` and `c` the previous hidden and cell states, `W` the stacked weight
  matrix (4 · 1024 rows, 1024 + 1024 columns) and `β` the stacked bias, both programs compute, for gate `k`, batch
  row `b` and unit `s`,

      z k b s = Σ_j x[b,j] · W[1024k+s, j] + Σ_j h[b,j] · W[1024k+s, 1024+j] + β[1024k+s],
      c' = σ(z 0) · c + σ(z 1) · tanh(z 3),        h' = σ(z 2) · tanh(c'),        σ t = 1 / (1 + e^(-t)).

  The kernel works through the batch in 16 blocks of 256 rows. For each gate it multiplies the block of `x` by the
  gate's rows of the first 1024 weight columns and the block of `h` by the same rows of the last 1024 columns — two
  products, each contracting 1024 columns, each onto a zero accumulator —, adds the two and the bias, and squashes
  with the logistic function or `tanh`. The reference joins `x` and `h` side by side, multiplies ONCE by the
  transposed weight matrix contracting all 2048 columns, adds the bias, cuts the 4096 columns into the four gates,
  and squashes, the logistic function spelled out as one over one plus the exponential of the negation.

  Why they agree, entry by entry:
  * a sum over the 2048 joined columns is the sum over the first 1024 plus the sum over the last 1024
    (`LstmSpec.sum_joined`) — true in any commutative additive monoid, so it needs nothing of the entries, which
    may be infinite: the precondition that the inputs are finite is never used;
  * a product onto a zero accumulator is the bare sum of products, and a change of number format is the identity
    at exact arithmetic (Proof/GateValue.lean);
  * the logistic function IS one over one plus the exponential of the negation, the constant's bit pattern denoting
    the number one (Proof/RefValue.lean);
  * a row of the result depends only on that row of `x`, `h`, `c`, so the 16 blocks the kernel writes are the 16
    blocks of the whole-batch result, and they tile it (Proof/ArrayValue.lean).

  Proof/LstmSpec.lean states the step once; Proof/BodyValue.lean and Proof/ArrayValue.lean show the kernel's two
  result arrays hold it, Proof/RefValue.lean that the reference's two results do. The three programs terminate
  without fault and leave their arguments alone by their generated frame and run modules. The idealized kernel is
  the kernel's own text read at exact arithmetic (no rewrite was applied), so there is nothing to preserve.
-/
import proofs.«122573_j15195594293829_2_alg».proof.Defs
import proofs.«122573_j15195594293829_2_alg».proof.Proof.Gen.Kernel
import proofs.«122573_j15195594293829_2_alg».proof.Proof.Gen.Kernel.Skeleton
import proofs.«122573_j15195594293829_2_alg».proof.Proof.Gen.Kernel.Launch
import proofs.«122573_j15195594293829_2_alg».proof.Proof.Gen.Kernel.Points
import proofs.«122573_j15195594293829_2_alg».proof.Proof.Gen.Kernel.Frame
import proofs.«122573_j15195594293829_2_alg».proof.Proof.Gen.KernelIdeal
import proofs.«122573_j15195594293829_2_alg».proof.Proof.Gen.KernelIdeal.Skeleton
import proofs.«122573_j15195594293829_2_alg».proof.Proof.Gen.KernelIdeal.Launch
import proofs.«122573_j15195594293829_2_alg».proof.Proof.Gen.KernelIdeal.Points
import proofs.«122573_j15195594293829_2_alg».proof.Proof.Gen.KernelIdeal.Frame
import proofs.«122573_j15195594293829_2_alg».proof.Proof.Gen.KernelIdeal.Value
import proofs.«122573_j15195594293829_2_alg».proof.Proof.Gen.ReferenceIdeal
import proofs.«122573_j15195594293829_2_alg».proof.Proof.Gen.ReferenceIdeal.Run
import proofs.«122573_j15195594293829_2_alg».proof.Proof.Gen.ReferenceIdeal.Read
import proofs.«122573_j15195594293829_2_alg».proof.Proof.Gen.Pre_finite_inputs
import proofs.«122573_j15195594293829_2_alg».proof.Proof.ArrayValue
import proofs.«122573_j15195594293829_2_alg».proof.Proof.RefValue
import Idealize.ShloMosaic.Adequacy
import Idealize.ShloMosaic.Init

noncomputable section

namespace Cert.Proof

open Idealize.ShloMosaic Idealize.SL.Sem

/-- The kernel as printed terminates without fault and leaves its arguments unchanged. -/
theorem frame_kernel : Cert.frame_Kernel := fun m ρ _ => Cert.Kernel.Gen.frame m ρ

/-- So does the kernel read at exact arithmetic. -/
theorem frame_kernelIdeal : Cert.frame_KernelIdeal := fun m ρ _ => Cert.KernelIdeal.Gen.frame m ρ

/-- So does the reference: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation was rewritten between the kernel and its exact-arithmetic reading. -/
theorem preserves : Cert.preserves_Kernel_KernelIdeal := trivial

/-- From memories that agree on the five arguments, both programs end with the new hidden state and the new cell
    state of `LstmSpec` in their two results. -/
theorem algebraic : Cert.algebraic_KernelIdeal_ReferenceIdeal := by
  intro m ρ m' ρ' _ hagree
  refine ⟨fun c => Cert.KernelIdeal.ArrayValue.hiddenSpec m c, fun c => Cert.KernelIdeal.ArrayValue.cellSpec m c,
    Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v33_eq]
    funext i
    rw [Cert.ReferenceIdeal.RefValue.newhidden_apply, (hagree c).1, (hagree c).2.1, (hagree c).2.2.1, (hagree c).2.2.2.1,
      (hagree c).2.2.2.2]
    rfl
  · rw [Cert.ReferenceIdeal.Read.val_main_v31_eq]
    funext i
    rw [Cert.ReferenceIdeal.RefValue.newcell_apply, (hagree c).1, (hagree c).2.1, (hagree c).2.2.1, (hagree c).2.2.2.1,
      (hagree c).2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
